-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S64x64 : Shape := ⟨2, ![64, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x64 .f32) (main_arg3 : FVec F S128x128 .f32) (main_arg4 : FVec F S128 .f32) (main_arg5 : FVec F S64x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S1x128 : Shape := ⟨2, ![1, 128]⟩
abbrev S1x64 : Shape := ⟨2, ![1, 64]⟩
abbrev S50000x192 : Shape := ⟨2, ![50000, 192]⟩
abbrev S5000x128 : Shape := ⟨2, ![5000, 128]⟩
abbrev S5000x64 : Shape := ⟨2, ![5000, 64]⟩
abbrev S5000x192 : Shape := ⟨2, ![5000, 192]⟩

abbrev nBuf : Space → Nat
  | .hbm => 16
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S128x128, .f32⟩
  | .hbm, ⟨4, _⟩ => ⟨S128, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x64, .f32⟩
  | .hbm, ⟨11, _⟩ => ⟨S800000x1, .i32⟩
  | .hbm, ⟨12, _⟩ => ⟨S50000x64, .f32⟩
  | .hbm, ⟨13, _⟩ => ⟨S1x128, .f32⟩
  | .hbm, ⟨14, _⟩ => ⟨S1x64, .f32⟩
  | .hbm, ⟨15, _⟩ => ⟨S50000x192, .f32⟩
  | .local _ .vmem, ⟨0, _⟩ => ⟨S5000x128, .f32⟩
  | .local _ .vmem, ⟨1, _⟩ => ⟨S5000x128, .f32⟩
  | .local _ .vmem, ⟨2, _⟩ => ⟨S5000x64, .f32⟩
  | .local _ .vmem, ⟨3, _⟩ => ⟨S5000x64, .f32⟩
  | .local _ .vmem, ⟨4, _⟩ => ⟨S128x128, .f32⟩
  | .local _ .vmem, ⟨5, _⟩ => ⟨S1x128, .f32⟩
  | .local _ .vmem, ⟨6, _⟩ => ⟨S64x64, .f32⟩
  | .local _ .vmem, ⟨7, _⟩ => ⟨S1x64, .f32⟩
  | .local _ .vmem, ⟨8, _⟩ => ⟨S5000x192, .f32⟩
  | .local _ .vmem, ⟨9, _⟩ => ⟨S5000x192, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x192_S5000x128_0_0 : ∀ a, (![0, 0] : Fin 2 → Nat) a + S5000x128.size a ≤ S5000x192.size a
  inb_S5000x192_S5000x64_0_128 : ∀ a, (![0, 128] : Fin 2 → Nat) a + S5000x64.size a ≤ S5000x192.size a
  scatter_S50000x64_S800000x1_S800000x64_1_0_0_1_wf : ScatterDims.WF S50000x64 S800000x1 S800000x64 [1] [0] [0] 1
  dot_S5000x128_S128x128_S5000x128_1_0_0_1_n_n_wf : DotDims.WF S5000x128 S128x128 S5000x128 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x192.size a ≤ S50000x192.size a
  hwx0_6 : ∀ i : grid0.Coords, EltTy.bits .f32 = 32 ∨ (Rect.block (s := S50000x192) S5000x192.size (cc0_transform_6 i) (hinb0_6 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S5000x192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S128x128 : Shape := ⟨2, ![128, 128]⟩
abbrev S128 : Shape := ⟨1, ![128]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000x64 : Shape := ⟨2, ![50000, 64]⟩
abbrev S800000x1 : Shape := ⟨2, ![800000, 1]⟩
abbrev S1x128 : Shape := ⟨2, ![1, 128]⟩
abbrev S1x64 : Shape := ⟨2, ![1, 64]⟩
abbrev S50000x192 : Shape := ⟨2, ![50000, 192]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S128x128, .f32⟩
  | .hbm, ⟨4, _⟩ => ⟨S128, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000x64, .f32⟩
  | .hbm, ⟨11, _⟩ => ⟨S800000x1, .i32⟩
  | .hbm, ⟨12, _⟩ => ⟨S50000x64, .f32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S50000x64, .f32⟩
  | .hbm, ⟨18, _⟩ => ⟨S1x64, .f32⟩
  | .hbm, ⟨19, _⟩ => ⟨S50000x64, .f32⟩
  | .hbm, ⟨20, _⟩ => ⟨S50000x64, .f32⟩
  | .hbm, ⟨21, _⟩ => ⟨S50000x192, .f32⟩
  | .hbm, ⟨22, _⟩ => ⟨S_, .f32⟩
  | .hbm, ⟨23, _⟩ => ⟨S50000x192, .f32⟩
  | .hbm, ⟨24, _⟩ => ⟨S50000x192, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x128_S50000x64_S50000x192_d1 : Shape.Concatenates [S50000x128, S50000x64] S50000x192 1
  bcast_S_S50000x192 : S_.BroadcastsInDim S50000x192 (![] : Fin 0 → Fin S50000x192.rank)
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x64_S64x64_S50000x64_1_0_0_1_n_n_wf : DotDims.WF S50000x64 S64x64 S50000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibCanonUnit.lean ====
/-
  Reading, at one index, the contents a list of stores leaves when the NEWEST store went through a unit-stride
  rectangle `[off, off + size)`: an index inside the rectangle reads that store's payload at the index minus the
  offsets; an index that misses the rectangle on some axis reads what the earlier stores left. Two general lemmas over
  `View.canon` (the contents as a function of the pieces alone), for any shape, element type and value family.
-/
import Idealize.ShloMosaic.Lib.Pipeline.Value

noncomputable section

namespace Idealize.ShloMosaic.View

variable {Val : EltTy → Type} {S : Shape} {e : EltTy}

/-- An index `y` at position `x` of the newest piece's unit-stride rectangle (`y a = off a + x a` on every axis)
    reads that piece's payload at `x`, whatever the earlier pieces are. -/
theorem canon_cons_unit_of_mem [∀ e, Nonempty (Val e)] {off size : Fin S.rank → Nat}
    (inb : ∀ a, off a + size a ≤ S.size a) (w : (Rect.unit off size inb).shape.Idx → Val e)
    (L : List (Piece Val S e)) (y : S.Idx) (x : (Rect.unit off size inb).shape.Idx)
    (hx : ∀ a, (y a).val = off a + (x a).val) :
    View.canon ((⟨Rect.unit off size inb, w⟩ : Piece Val S e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the newest piece's unit-stride rectangle on axis `a` reads what the earlier pieces left. -/
theorem canon_cons_unit_of_not_mem [∀ e, Nonempty (Val e)] {off size : Fin S.rank → Nat}
    (inb : ∀ a, off a + size a ≤ S.size a) (w : (Rect.unit off size inb).shape.Idx → Val e)
    (L : List (Piece Val S e)) (y : S.Idx) (a : Fin S.rank)
    (ha : (y a).val < off a ∨ off a + size a ≤ (y a).val) :
    View.canon ((⟨Rect.unit off size inb, w⟩ : Piece Val S e) :: L) y = View.canon L y :=
  View.canon_cons_of_not_mem _ L (fun h => by
    have h' : y ∈ (Rect.unit off size inb).set := h
    have := (Rect.mem_set_unit.mp h') a
    omega)

end Idealize.ShloMosaic.View

end
-- ==== Proof.BodyValue.lean ====
/-
  What one run of the kernel body leaves in the output block, entry by entry.

  The body stores twice into the 5000 × 192 output block: first the node layer's 5000 × 128 result at column 0, then
  the edge layer's 5000 × 64 result at column 128. The two rectangles are disjoint and together fill the block, so an
  entry in a column below 128 is the first store's value at the same place, and an entry in a column from 128 on is
  the second store's value at the column less 128. Each stored value is a function of the whole input blocks, which
  the body loads through the full rectangle of each staging buffer.
-/
import proofs.«181262_j34144990003907_1_alg».proof.Proof.Gen.KernelIdeal.Frame
import proofs.«181262_j34144990003907_1_alg».proof.Proof.LibCanonUnit
import Idealize.ShloMosaic.Lib.Pipeline.Value
import Idealize.ShloMosaic.Lib.ValueIdx
import Idealize.ShloMosaic.Lib.Tactic

noncomputable section

namespace Cert.KernelIdeal.BodyValue

open Cert.KernelIdeal Cert.KernelIdeal.Gen Idealize.ShloMosaic Idealize.ShloMosaic.TcCoe Idealize.SL.Sem
open Idealize.ShloMosaic.ValueIdx

variable {F : FTy → Type} [FloatOps F]

theorem hz : (![0, 0] : Fin 2 → Nat) = fun _ => 0 := funext fun a => by fin_cases a <;> rfl

/-- An entry of the block in a column below 128 is the node layer's stored value there: the later store, at columns
    128–191, misses it. -/
theorem block_left (c : Dev nD) (i : grid0.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x192 .f32) (harg7 : arg7.IsWhole)
    (x0 : Vec F S5000x128 .f32) (x1 : Vec F S5000x64 .f32) (x2 : Vec F S128x128 .f32) (x3 : Vec F S1x128 .f32) (x4 : Vec F S64x64 .f32) (x5 : Vec F S1x64 .f32)
    (y : S5000x192.Idx) (r : Fin 5000) (cc : Fin 128) (h0 : (y 0).val = r.val) (h1 : (y 1).val = cc.val) :
    out0_A_6 c i arg1 harg1 arg2 harg2 arg3 harg3 arg4 harg4 arg5 harg5 arg6 harg6 arg7 harg7 x0 x1 x2 x3 x4 x5 y = k0_pay1 x0 x2 x3 (ix2 r cc) := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  simp only [View.readAt_eq_ld, harg1.read_unread, harg2.read_unread, harg3.read_unread, harg4.read_unread,
    harg5.read_unread, harg6.read_unread, View.ld_unit_zero (S := S5000x128) hz, View.ld_unit_zero (S := S5000x64) hz,
    View.ld_unit_zero (S := S128x128) hz, View.ld_unit_zero (S := S1x128) hz, View.ld_unit_zero (S := S64x64) hz,
    View.ld_unit_zero (S := S1x64) hz]
  rw [View.canon_cons_unit_of_not_mem _ _ _ y 1 (Or.inl (by have := cc.isLt; show (y 1).val < 128; omega))]
  exact View.canon_cons_unit_of_mem _ _ _ y (ix2 r cc) (fun a => by
    match a with
    | ⟨0, _⟩ => show (y 0).val = 0 + r.val; omega
    | ⟨1, _⟩ => show (y 1).val = 0 + cc.val; omega)

/-- An entry of the block in a column from 128 on is the edge layer's stored value at the column less 128. -/
theorem block_right (c : Dev nD) (i : grid0.Coords) (arg1 : Memref sig .tc .vmem S5000x128 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x192 .f32) (harg7 : arg7.IsWhole)
    (x0 : Vec F S5000x128 .f32) (x1 : Vec F S5000x64 .f32) (x2 : Vec F S128x128 .f32) (x3 : Vec F S1x128 .f32) (x4 : Vec F S64x64 .f32) (x5 : Vec F S1x64 .f32)
    (y : S5000x192.Idx) (r : Fin 5000) (cc : Fin 64) (h0 : (y 0).val = r.val) (h1 : (y 1).val = 128 + cc.val) :
    out0_A_6 c i arg1 harg1 arg2 harg2 arg3 harg3 arg4 harg4 arg5 harg5 arg6 harg6 arg7 harg7 x0 x1 x2 x3 x4 x5 y = k0_pay2 x1 x4 x5 (ix2 r cc) := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  simp only [View.readAt_eq_ld, harg1.read_unread, harg2.read_unread, harg3.read_unread, harg4.read_unread,
    harg5.read_unread, harg6.read_unread, View.ld_unit_zero (S := S5000x128) hz, View.ld_unit_zero (S := S5000x64) hz,
    View.ld_unit_zero (S := S128x128) hz, View.ld_unit_zero (S := S1x128) hz, View.ld_unit_zero (S := S64x64) hz,
    View.ld_unit_zero (S := S1x64) hz]
  exact View.canon_cons_unit_of_mem _ _ _ y (ix2 r cc) (fun a => by
    match a with
    | ⟨0, _⟩ => show (y 0).val = 0 + r.val; omega
    | ⟨1, _⟩ => show (y 1).val = 128 + cc.val; omega)

end Cert.KernelIdeal.BodyValue

end
-- ==== Proof.PayloadValue.lean ====
/-
  The two values the kernel body stores, read at one entry over the extended reals.

  Each is `max (product + bias row spread down the rows, 0)`. Rounding the operands to a shorter float format before the
  product is the identity on extended reals; the product into a zero accumulator at `(r, c)` is the sum over `k` of
  left `(r, k)` times right `(k, c)`; the bias arrives as a one-row block and is read at `(0, c)`.
-/
import proofs.«181262_j34144990003907_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadValue

open Cert.KernelIdeal Cert.KernelIdeal.Gen Idealize.ShloMosaic Idealize.ShloMosaic.ValueIdx

/-! ### The node layer's product: operand indices at an output entry and a contraction index -/

theorem lhs_node_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_node_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_node_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_node_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The node layer's matrix product into a zero accumulator, at entry `(r, c)`: the sum over the contracted
    coordinate `k` of the left operand at `(r, k)` times the right operand at `(k, c)`. -/
theorem node_product {φ₁ φ₂ : FTy} (a : FVec Ideal S5000x128 φ₁) (b : FVec Ideal S128x128 φ₂) (r : Fin 5000) (c : Fin 128) :
    matmul dot_S5000x128_S128x128_S5000x128_1_0_0_1_n_n none a b (constant (F := Ideal) S5000x128 .f32 0x00000000#32) (ix2 r c)
      = ∑ k : Fin 128, a (ix2 r k) * b (ix2 k c) := by
  refine (Ideal.matmul_constant_zero_apply dot_S5000x128_S128x128_S5000x128_1_0_0_1_n_n none a b (ix2 r c)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r c) ((contrEquiv1 dot_S5000x128_S128x128_S5000x128_1_0_0_1_n_n 128 rfl rfl).symm k) = ix2 r k := funext fun ax => Fin.ext (by
    match ax with
    | ⟨0, _⟩ => exact lhs_node_0 _ _
    | ⟨1, _⟩ => exact (lhs_node_1 _ _).trans hk)
  have er : dot_S5000x128_S128x128_S5000x128_1_0_0_1_n_n.rhsIdx (ix2 r c) ((contrEquiv1 dot_S5000x128_S128x128_S5000x128_1_0_0_1_n_n 128 rfl rfl).symm k) = ix2 k c := funext fun ax => Fin.ext (by
    match ax with
    | ⟨0, _⟩ => exact (rhs_node_0 _ _).trans hk
    | ⟨1, _⟩ => exact rhs_node_1 _ _)
  rw [el, er]

/-! ### The edge layer's product: operand indices at an output entry and a contraction index -/

theorem lhs_edge_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_edge_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhs_edge_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhs_edge_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The edge layer's matrix product into a zero accumulator, at entry `(r, c)`: the sum over the contracted
    coordinate `k` of the left operand at `(r, k)` times the right operand at `(k, c)`. -/
theorem edge_product {φ₁ φ₂ : FTy} (a : FVec Ideal S5000x64 φ₁) (b : FVec Ideal S64x64 φ₂) (r : Fin 5000) (c : Fin 64) :
    matmul dot_S5000x64_S64x64_S5000x64_1_0_0_1_n_n none a b (constant (F := Ideal) S5000x64 .f32 0x00000000#32) (ix2 r c)
      = ∑ k : Fin 64, a (ix2 r k) * b (ix2 k c) := by
  refine (Ideal.matmul_constant_zero_apply dot_S5000x64_S64x64_S5000x64_1_0_0_1_n_n none a b (ix2 r c)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r c) ((contrEquiv1 dot_S5000x64_S64x64_S5000x64_1_0_0_1_n_n 64 rfl rfl).symm k) = ix2 r k := funext fun ax => Fin.ext (by
    match ax with
    | ⟨0, _⟩ => exact lhs_edge_0 _ _
    | ⟨1, _⟩ => exact (lhs_edge_1 _ _).trans hk)
  have er : dot_S5000x64_S64x64_S5000x64_1_0_0_1_n_n.rhsIdx (ix2 r c) ((contrEquiv1 dot_S5000x64_S64x64_S5000x64_1_0_0_1_n_n 64 rfl rfl).symm k) = ix2 k c := funext fun ax => Fin.ext (by
    match ax with
    | ⟨0, _⟩ => exact (rhs_edge_0 _ _).trans hk
    | ⟨1, _⟩ => exact rhs_edge_1 _ _)
  rw [el, er]

/-! ## The stored values at an entry -/

/-- The node layer's stored value at `(r, c)`: row `r` of the input block against column `c` of the weights, plus the
    bias row at `c`, cut below at zero. -/
theorem node_payload (x0 : Vec Ideal S5000x128 .f32) (x2 : Vec Ideal S128x128 .f32) (x3 : Vec Ideal S1x128 .f32)
    (r : Fin 5000) (c : Fin 128) :
    k0_pay1 (F := Ideal) x0 x2 x3 (ix2 r c)
      = max ((∑ k : Fin 128, x0 (ix2 r k) * x2 (ix2 k c)) + x3 (ix2 (0 : Fin 1) c)) 0 := by
  unfold k0_pay1
  show max (matmul dot_S5000x128_S128x128_S5000x128_1_0_0_1_n_n none (truncf .bf16 x0 bitsLt_bf16_f32) (truncf .bf16 x2 bitsLt_bf16_f32)
        (constant (F := Ideal) S5000x128 .f32 0x00000000#32) (ix2 r c)
      + broadcastTo S5000x128 (shapeCast S1x128 x3 Facts₀.shapeCasts_S1x128_S1x128) Facts₀.broadcasts_S1x128_S5000x128 (ix2 r c))
    (Ideal.ofBits .f32 0x00000000#32) = _
  rw [node_product, shapeCast_self, broadcastTo_1b_ab_apply, Ideal.ofBits_zero_f32]
  rfl

/-- The edge layer's stored value at `(r, c)`: row `r` of the aggregated block against column `c` of the weights, plus
    the bias row at `c`, cut below at zero. -/
theorem edge_payload (x1 : Vec Ideal S5000x64 .f32) (x4 : Vec Ideal S64x64 .f32) (x5 : Vec Ideal S1x64 .f32)
    (r : Fin 5000) (c : Fin 64) :
    k0_pay2 (F := Ideal) x1 x4 x5 (ix2 r c)
      = max ((∑ k : Fin 64, x1 (ix2 r k) * x4 (ix2 k c)) + x5 (ix2 (0 : Fin 1) c)) 0 := by
  unfold k0_pay2
  show max (matmul dot_S5000x64_S64x64_S5000x64_1_0_0_1_n_n none
        (truncf .bf16 (shapeCast S5000x64 x1 Facts₀.shapeCasts_S5000x64_S5000x64) bitsLt_bf16_f32) (truncf .bf16 x4 bitsLt_bf16_f32)
        (constant (F := Ideal) S5000x64 .f32 0x00000000#32) (ix2 r c)
      + broadcastTo S5000x64 (shapeCast S1x64 x5 Facts₀.shapeCasts_S1x64_S1x64) Facts₀.broadcasts_S1x64_S5000x64 (ix2 r c))
    (Ideal.ofBits .f32 0x00000000#32) = _
  rw [edge_product, shapeCast_self, shapeCast_self, broadcastTo_1b_ab_apply, Ideal.ofBits_zero_f32]
  rfl

end Cert.KernelIdeal.PayloadValue

end
-- ==== Proof.EntryValue.lean ====
/-
  What the kernel's windows read, in terms of the program's arguments.

  Before the kernel is launched the program aggregates the edge features by source node (a scatter-add into a zero
  array, indexed by the first row of the edge index) and views each bias vector as a one-row matrix. The kernel then
  reads, at grid point `t`, rows `5000 t … 5000 t + 4999` of `x` and of the aggregated features, and the whole of
  the two weight matrices and of the two one-row biases.
-/
import proofs.«181262_j34144990003907_1_alg».proof.Proof.Gen.KernelIdeal.Frame.Runs
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.EntryValue

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## The arrays the program computes before the launch -/

/-- The edge features summed by source node: a scatter-add of the edge features into a zero array, each edge's row
    added to the row its source index (the first row of the edge index) names. -/
def aggregated (x1 : (⟨S2x800000, .i32⟩ : BufTy).Contents (Elt F)) (x2 : (⟨S800000x64, .f32⟩ : BufTy).Contents (Elt F)) :
    (⟨S50000x64, .f32⟩ : BufTy).Contents (Elt F) :=
  Host.scatterAdd scatter_S50000x64_S800000x1_S800000x64_1_0_0_1
    (broadcastInDim S50000x64 ![] Facts₀.bcast_S_S50000x64 (constant S_ .f32 0x00000000#32))
    (broadcastInDim S800000x1 ![0] Facts₀.bcast_S800000_S800000x1_0
      (shapeCast _ (extractStridedSlice S1x800000 ![0, 0] x1 Facts₀.slices_S2x800000_S1x800000_0_0) Facts₀.shapeCasts_S1x800000_S800000))
    x2

/-- The kernel's second operand, as the launch finds it, is the aggregated edge features of the arguments. -/
theorem found_aggregated (c : Dev nD) :
    (V m c main_v4 : S50000x64.Idx → Elt F .f32) = aggregated (m ((c : Thread nD τ).loc main_arg1)) (m ((c : Thread nD τ).loc main_arg2)) := by
  dsimp only [Gen.V, Gen.hostOps0]; after_results; rfl

/-- The node bias as the launch finds it: the bias vector viewed as one row. -/
theorem found_node_bias (c : Dev nD) :
    (V m c main_v5 : S1x128.Idx → Elt F .f32) = shapeCast S1x128 (m ((c : Thread nD τ).loc main_arg4)) Facts₀.shapeCasts_S128_S1x128 := by
  dsimp only [Gen.V, Gen.hostOps0]; after_results; rfl

/-- The edge bias as the launch finds it: the bias vector viewed as one row. -/
theorem found_edge_bias (c : Dev nD) :
    (V m c main_v6 : S1x64.Idx → Elt F .f32) = shapeCast S1x64 (m ((c : Thread nD τ).loc main_arg6)) Facts₀.shapeCasts_S64_S1x64 := by
  dsimp only [Gen.V, Gen.hostOps0]; after_results; rfl

/-! ## Where each window's block sits at a grid point -/

/-- The block indices over the ten grid points: the row-blocked windows (input rows, aggregated rows, output rows)
    are at block row `t`, column block 0; the weights and biases stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The blocks read at an entry -/

/-- Row `r` of the input block at point `t` is row `5000 t + r` of `x`. -/
theorem node_rows (c : Dev nD) (t : Fin cfg0.N) (r : Fin 5000) (k : Fin 128) (R : Fin 50000)
    (hR : R.val = 5000 * t.val + r.val) :
    iblk m c 0 t (ix2 r k) = (m ((c : Thread nD τ).loc main_arg0)) (ix2 R k) := by
  obtain ⟨e0, e1, -⟩ := block_indices t
  rw [← V_main_arg0 m c]
  show V m c main_arg0 (((cfg0.win 0).blk t).view.emb (ix2 r k)) = V m c main_arg0 (ix2 R k)
  refine congrArg _ (funext fun a => Fin.ext ?_)
  match a with
  | ⟨0, _⟩ => show win0_0.index t (0 : Fin 2) * 5000 + 1 * r.val = R.val; omega
  | ⟨1, _⟩ => show win0_0.index t (1 : Fin 2) * 128 + 1 * k.val = k.val; omega

/-- Row `r` of the aggregated block at point `t` is row `5000 t + r` of the aggregated edge features. -/
theorem aggregated_rows (c : Dev nD) (t : Fin cfg0.N) (r : Fin 5000) (k : Fin 64) (R : Fin 50000)
    (hR : R.val = 5000 * t.val + r.val) :
    iblk m c 1 t (ix2 r k) = aggregated (m ((c : Thread nD τ).loc main_arg1)) (m ((c : Thread nD τ).loc main_arg2)) (ix2 R k) := by
  obtain ⟨-, -, e0, e1, -⟩ := block_indices t
  rw [← found_aggregated m c]
  show V m c main_v4 (((cfg0.win 1).blk t).view.emb (ix2 r k)) = V m c main_v4 (ix2 R k)
  refine congrArg _ (funext fun a => Fin.ext ?_)
  match a with
  | ⟨0, _⟩ => show win0_1.index t (0 : Fin 2) * 5000 + 1 * r.val = R.val; omega
  | ⟨1, _⟩ => show win0_1.index t (1 : Fin 2) * 64 + 1 * k.val = k.val; omega

/-- The node weights' block is the whole matrix at every point. -/
theorem node_weights (c : Dev nD) (t : Fin cfg0.N) (k : Fin 128) (q : Fin 128) :
    iblk m c 2 t (ix2 k q) = (m ((c : Thread nD τ).loc main_arg3)) (ix2 k q) := by
  obtain ⟨-, -, -, -, e0, e1, -⟩ := block_indices t
  rw [← V_main_arg3 m c]
  show V m c main_arg3 (((cfg0.win 2).blk t).view.emb (ix2 k q)) = V m c main_arg3 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The node bias's block, at `(0, q)`, is the bias vector at `q`. -/
theorem node_bias (c : Dev nD) (t : Fin cfg0.N) (q : Fin 128) :
    iblk m c 3 t (ix2 (0 : Fin 1) q) = (m ((c : Thread nD τ).loc main_arg4)) (ix1 q) := by
  obtain ⟨-, -, -, -, -, -, e0, e1, -⟩ := block_indices t
  refine Eq.trans ?_ (shapeCast_a_1a_apply (m ((c : Thread nD τ).loc main_arg4)) Facts₀.shapeCasts_S128_S1x128 (0 : Fin 1) q)
  refine Eq.trans ?_ (congrFun (found_node_bias m c) (ix2 (0 : Fin 1) q))
  show V m c main_v5 (((cfg0.win 3).blk t).view.emb (ix2 (0 : Fin 1) q)) = V m c main_v5 (ix2 (0 : Fin 1) q)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The edge weights' block is the whole matrix at every point. -/
theorem edge_weights (c : Dev nD) (t : Fin cfg0.N) (k : Fin 64) (q : Fin 64) :
    iblk m c 4 t (ix2 k q) = (m ((c : Thread nD τ).loc main_arg5)) (ix2 k q) := by
  obtain ⟨-, -, -, -, -, -, -, -, e0, e1, -⟩ := block_indices t
  rw [← V_main_arg5 m c]
  show V m c main_arg5 (((cfg0.win 4).blk t).view.emb (ix2 k q)) = V m c main_arg5 (ix2 k q)
  refine congrArg _ (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

/-- The edge bias's block, at `(0, q)`, is the bias vector at `q`. -/
theorem edge_bias (c : Dev nD) (t : Fin cfg0.N) (q : Fin 64) :
    iblk m c 5 t (ix2 (0 : Fin 1) q) = (m ((c : Thread nD τ).loc main_arg6)) (ix1 q) := by
  obtain ⟨-, -, -, -, -, -, -, -, -, -, e0, e1, -⟩ := block_indices t
  refine Eq.trans ?_ (shapeCast_a_1a_apply (m ((c : Thread nD τ).loc main_arg6)) Facts₀.shapeCasts_S64_S1x64 (0 : Fin 1) q)
  refine Eq.trans ?_ (congrFun (found_edge_bias m c) (ix2 (0 : Fin 1) q))
  show V m c main_v6 (((cfg0.win 5).blk t).view.emb (ix2 (0 : Fin 1) q)) = V m c main_v6 (ix2 (0 : Fin 1) q)
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * q.val = q.val; omega

end Cert.KernelIdeal.EntryValue

end
-- ==== Proof.Spec.lean ====
/-
  The function both programs compute, as one formula over the extended reals.

  A node's output row is two linear layers laid side by side and cut below at zero: columns 0–127 are
  `max (x · Wx + bx, 0)` of the node's 128 features, columns 128–191 are `max (agg · We + be, 0)` of the 64
  aggregated edge features of that node. Every entry is a finite sum of products plus a bias, so nothing here needs
  the inputs to be finite: sums and products of extended reals are what they are, and both programs take them in the
  same arrangement (row of the input against column of the weights).
-/
import Idealize.ShloMosaic.PureOps.Ideal
import Idealize.ShloMosaic.Lib.ValueIdx

noncomputable section

namespace Cert.TwoLayers

open Idealize.ShloMosaic Idealize.ShloMosaic.ValueIdx

/-- Entry `(r, c)` of the node layer: row `r` of `x` against column `c` of `w`, plus `b c`, cut below at zero. -/
def nodeEntry (x : (⟨2, ![50000, 128]⟩ : Shape).Idx → EReal) (w : (⟨2, ![128, 128]⟩ : Shape).Idx → EReal)
    (b : (⟨1, ![128]⟩ : Shape).Idx → EReal) (r : Fin 50000) (c : Fin 128) : EReal :=
  max ((∑ k : Fin 128, x (ix2 r k) * w (ix2 k c)) + b (ix1 c)) 0

/-- Entry `(r, c)` of the edge layer: row `r` of the aggregated edge features against column `c` of `w`, plus `b c`,
    cut below at zero. -/
def edgeEntry (agg : (⟨2, ![50000, 64]⟩ : Shape).Idx → EReal) (w : (⟨2, ![64, 64]⟩ : Shape).Idx → EReal)
    (b : (⟨1, ![64]⟩ : Shape).Idx → EReal) (r : Fin 50000) (c : Fin 64) : EReal :=
  max ((∑ k : Fin 64, agg (ix2 r k) * w (ix2 k c)) + b (ix1 c)) 0

/-- The whole output: a column below 128 is the node layer's entry at that column, a column from 128 on is the edge
    layer's entry at the column less 128. -/
def joined (x : (⟨2, ![50000, 128]⟩ : Shape).Idx → EReal) (agg : (⟨2, ![50000, 64]⟩ : Shape).Idx → EReal)
    (wx : (⟨2, ![128, 128]⟩ : Shape).Idx → EReal) (bx : (⟨1, ![128]⟩ : Shape).Idx → EReal)
    (we : (⟨2, ![64, 64]⟩ : Shape).Idx → EReal) (be : (⟨1, ![64]⟩ : Shape).Idx → EReal) :
    (⟨2, ![50000, 192]⟩ : Shape).Idx → EReal := fun i =>
  if h : (i 1).val < 128 then nodeEntry x wx bx ⟨(i 0).val, (i 0).isLt⟩ ⟨(i 1).val, h⟩
  else edgeEntry agg we be ⟨(i 0).val, (i 0).isLt⟩
    ⟨(i 1).val - 128, by have h1 : (i 1).val < 192 := (i 1).isLt; omega⟩

/-- The joined output at a column of the left part. -/
theorem joined_left (x agg wx bx we be) (r : Fin 50000) (c : Fin 128) :
    joined x agg wx bx we be (ix2 r ⟨c.val, by have := c.isLt; omega⟩) = nodeEntry x wx bx r c := by
  unfold joined
  rw [dif_pos (show ((ix2 r (⟨c.val, by have := c.isLt; omega⟩ : Fin 192)) 1).val < 128 from c.isLt)]

/-- The joined output at a column of the right part. -/
theorem joined_right (x agg wx bx we be) (r : Fin 50000) (c : Fin 64) :
    joined x agg wx bx we be (ix2 r ⟨128 + c.val, by have := c.isLt; omega⟩) = edgeEntry agg we be r c := by
  unfold joined
  rw [dif_neg (show ¬((ix2 r (⟨128 + c.val, by have := c.isLt; omega⟩ : Fin 192)) 1).val < 128 from
    Nat.not_lt.2 (Nat.le_add_right 128 c.val))]
  congr 1
  exact Fin.ext (show 128 + c.val - 128 = c.val by omega)

end Cert.TwoLayers

end
-- ==== Proof.KernelValue.lean ====
/-
  The kernel's output array after the run is the joined two-layer output of the arguments.

  Grid point `t` writes back rows `5000 t … 5000 t + 4999` of the output. An entry of that block in a column below
  128 is the node layer's stored value — the block's row of `x` against the column of the node weights, plus the node
  bias —, and in a column from 128 on the edge layer's stored value at the column less 128 — the block's row of the
  aggregated edge features against the column of the edge weights, plus the edge bias. The block's row `r` is the
  array's row `5000 t + r`, so the block is the joined output restricted to its rows. The ten blocks cover every
  row (row `R` lies in block `R / 5000`), hence the whole array is the joined output.
-/
import proofs.«181262_j34144990003907_1_alg».proof.Proof.Gen.KernelIdeal.Value
import proofs.«181262_j34144990003907_1_alg».proof.Proof.BodyValue
import proofs.«181262_j34144990003907_1_alg».proof.Proof.PayloadValue
import proofs.«181262_j34144990003907_1_alg».proof.Proof.EntryValue
import proofs.«181262_j34144990003907_1_alg».proof.Proof.Spec

noncomputable section

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx Cert.TwoLayers
open Cert.KernelIdeal.BodyValue Cert.KernelIdeal.PayloadValue Cert.KernelIdeal.EntryValue

variable (m : (ℓ : Loc nD τ sig) → Buf (Elt Ideal) ℓ) (ρ : Dev nD → PrngReg)

/-- The joined two-layer output of the arguments on core `c`, the aggregated edge features computed from the edge
    index and the edge features as the program does before the launch. -/
def result (c : Dev nD) : S50000x192.Idx → EReal :=
  joined (m ((c : Thread nD τ).loc main_arg0)) (aggregated (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6))

/-- What point `t` writes back is the joined output read through the point's block of rows. -/
theorem flushed_eq (c : Dev nD) (t : Fin cfg0.N) :
    (dats m 0 c).flushed 6 t = ((cfg0.win 6).blk t).view.read (Elt Ideal) (result m c) := by
  rw [Value.flushed6_A]
  obtain ⟨-, -, -, -, -, -, -, -, -, -, -, -, e0, e1⟩ := block_indices t
  have hN : t.val < 10 := by have h := t.isLt; have e : cfg0.N = 10 := N_0; omega
  funext y
  obtain ⟨r, q, rfl⟩ : ∃ (r : Fin 5000) (q : Fin 192), y = ix2 r q := ⟨y 0, y 1, eq_ix2 y⟩
  have hR : 5000 * t.val + r.val < 50000 := by have := r.isLt; omega
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (ix2 r q)
    = result m c (((cfg0.win 6).blk t).view.emb (ix2 r q))
  have hemb : ((cfg0.win 6).blk t).view.emb (ix2 r q) = ix2 (⟨5000 * t.val + r.val, hR⟩ : Fin 50000) q :=
    funext fun a => Fin.ext (by
      match a with
      | ⟨0, _⟩ => show win0_6.index t (0 : Fin 2) * 5000 + 1 * r.val = 5000 * t.val + r.val; omega
      | ⟨1, _⟩ => show win0_6.index t (1 : Fin 2) * 192 + 1 * q.val = q.val; omega)
  rw [hemb]
  by_cases hq : q.val < 128
  · refine (block_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (ix2 r q) r ⟨q.val, hq⟩ rfl rfl).trans ?_
    refine (node_payload (iblk m c 0 t) (iblk m c 2 t) (iblk m c 3 t) r ⟨q.val, hq⟩).trans ?_
    refine Eq.trans ?_ (joined_left _ _ _ _ _ _ (⟨5000 * t.val + r.val, hR⟩ : Fin 50000) ⟨q.val, hq⟩).symm
    unfold nodeEntry
    rw [node_bias m c t ⟨q.val, hq⟩]
    simp only [node_rows m c t r _ ⟨5000 * t.val + r.val, hR⟩ rfl, node_weights m c t]
  · have hq' : q.val - 128 < 64 := by have := q.isLt; omega
    refine (block_right c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (ix2 r q) r ⟨q.val - 128, hq'⟩ rfl (by show q.val = 128 + (q.val - 128); omega)).trans ?_
    refine (edge_payload (iblk m c 1 t) (iblk m c 4 t) (iblk m c 5 t) r ⟨q.val - 128, hq'⟩).trans ?_
    have hq2 : q = ⟨128 + (⟨q.val - 128, hq'⟩ : Fin 64).val, by have := q.isLt; show 128 + (q.val - 128) < 192; omega⟩ :=
      Fin.ext (by show q.val = 128 + (q.val - 128); omega)
    refine Eq.trans ?_ (congrArg (fun z => result m c (ix2 (⟨5000 * t.val + r.val, hR⟩ : Fin 50000) z)) hq2).symm
    refine Eq.trans ?_ (joined_right _ _ _ _ _ _ (⟨5000 * t.val + r.val, hR⟩ : Fin 50000) ⟨q.val - 128, hq'⟩).symm
    unfold edgeEntry
    rw [edge_bias m c t ⟨q.val - 128, hq'⟩]
    simp only [aggregated_rows m c t r _ ⟨5000 * t.val + r.val, hR⟩ rfl, edge_weights m c t]

/-- An index of the output array is in point `t`'s block exactly when its row is one of the block's 5000 rows. -/
theorem mem_block (t : Fin cfg0.N) (i : S50000x192.Idx) :
    i ∈ ((cfg0.win 6).blk t).view.set ↔ ∀ a : Fin 2, win0_6.index t a * S5000x192.size a ≤ (i a).val
      ∧ (i a).val < win0_6.index t a * S5000x192.size a + S5000x192.size a := by
  show i ∈ ((View.whole main_v7).slice (win0_6.rect t)).set ↔ _
  rw [View.set_slice_whole, Rect.mem_set_unit]
  exact Iff.rfl

/-- Every index of the output array is in some point's block: row `R` is in the block of point `R / 5000`. -/
theorem covered (i : S50000x192.Idx) :
    ∃ t : Fin cfg0.N, (cfg0.win 6).flush t = true ∧ i ∈ ((cfg0.win 6).blk t).view.set := by
  have hi0 : (i 0).val < 50000 := (i 0).isLt
  have hi1 : (i 1).val < 192 := (i 1).isLt
  have hN : cfg0.N = 10 := N_0
  let t : Fin cfg0.N := ⟨(i 0).val / 5000, by rw [hN]; omega⟩
  obtain ⟨-, -, -, -, -, -, -, -, -, -, -, -, e0, e1⟩ := block_indices t
  have ht : t.val = (i 0).val / 5000 := rfl
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 192 ≤ (i 1).val ∧ (i 1).val < win0_6.index t (1 : Fin 2) * 192 + 192
    omega

/-- The output array after the run is the joined output. -/
theorem final (c : Dev nD) : (dats m 0 c).arrAt 6 cfg0.N = result m c :=
  (dats m 0 c).arrAt_eq_of_cover 6 (result m c) (fun t _ => flushed_eq m c t) covered

/-- The kernel program's run: the result array ends at the joined output of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.RunValue

end
-- ==== Proof.RefValue.lean ====
/-
  The reference computes the joined two-layer output.

  Its last stage is the maximum with a zero array of the concatenation, along the columns, of the node layer
  (`x · Wx` plus the bias row spread down the rows) and the edge layer (the aggregated edge features times `We`,
  plus its bias row). Read at one index: a column below 128 falls in the first piece of the concatenation, a column
  from 128 on in the second at the column less 128; a matrix product's entry is the sum over the contracted
  coordinate; the two bias broadcasts read the bias at the column.
-/
import proofs.«181262_j34144990003907_1_alg».proof.Proof.Gen.ReferenceIdeal.Run
import proofs.«181262_j34144990003907_1_alg».proof.Proof.Gen.ReferenceIdeal.Read
import proofs.«181262_j34144990003907_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.TwoLayers

/-! ## The index maps of the stages, at an index given by its coordinates -/

theorem lidx_node (r : Fin 50000) (c k : Fin 128) : lidx_main_v5 (ix2 r c) k = ix2 r k :=
  funext fun a => Fin.ext (by match a with | ⟨0, _⟩ => rfl | ⟨1, _⟩ => rfl)
theorem ridx_node (r : Fin 50000) (c k : Fin 128) : ridx_main_v5 (ix2 r c) k = ix2 k c :=
  funext fun a => Fin.ext (by match a with | ⟨0, _⟩ => rfl | ⟨1, _⟩ => rfl)
theorem bias_node (r : Fin 50000) (c : Fin 128) : idx_main_v6 (idx_main_v7 (ix2 r c)) = ix1 c :=
  funext fun a => Fin.ext (by match a with | ⟨0, _⟩ => rfl)
theorem lidx_edge (r : Fin 50000) (c k : Fin 64) : lidx_main_v9 (ix2 r c) k = ix2 r k :=
  funext fun a => Fin.ext (by match a with | ⟨0, _⟩ => rfl | ⟨1, _⟩ => rfl)
theorem ridx_edge (r : Fin 50000) (c k : Fin 64) : ridx_main_v9 (ix2 r c) k = ix2 k c :=
  funext fun a => Fin.ext (by match a with | ⟨0, _⟩ => rfl | ⟨1, _⟩ => rfl)
theorem bias_edge (r : Fin 50000) (c : Fin 64) : idx_main_v10 (idx_main_v11 (ix2 r c)) = ix1 c :=
  funext fun a => Fin.ext (by match a with | ⟨0, _⟩ => rfl)

/-! ## The two layers before the cut, at an entry -/

/-- The node layer's stage at `(r, c)`: row `r` of `x` against column `c` of the weights, plus the bias at `c`. -/
theorem node_stage (x0 : (⟨S50000x128, .f32⟩ : BufTy).Contents (Elt Ideal)) (x3 : (⟨S128x128, .f32⟩ : BufTy).Contents (Elt Ideal))
    (x4 : (⟨S128, .f32⟩ : BufTy).Contents (Elt Ideal)) (r : Fin 50000) (c : Fin 128) :
    val_main_v8 (F := Ideal) x0 x3 x4 (ix2 r c) = (∑ k : Fin 128, x0 (ix2 r k) * x3 (ix2 k c)) + x4 (ix1 c) := by
  rw [val_main_v8_apply, val_main_v5_apply, val_main_v7_apply, val_main_v6_apply, bias_node]
  simp only [lidx_node, ridx_node]
  rfl

/-- The edge layer's stage at `(r, c)`: row `r` of the aggregated features against column `c` of the weights, plus the
    bias at `c`. -/
theorem edge_stage (x1 : (⟨S2x800000, .i32⟩ : BufTy).Contents (Elt Ideal)) (x2 : (⟨S800000x64, .f32⟩ : BufTy).Contents (Elt Ideal))
    (x5 : (⟨S64x64, .f32⟩ : BufTy).Contents (Elt Ideal)) (x6 : (⟨S64, .f32⟩ : BufTy).Contents (Elt Ideal)) (r : Fin 50000) (c : Fin 64) :
    val_main_v12 (F := Ideal) x1 x2 x5 x6 (ix2 r c)
      = (∑ k : Fin 64, val_main_v4 (F := Ideal) x1 x2 (ix2 r k) * x5 (ix2 k c)) + x6 (ix1 c) := by
  rw [val_main_v12_apply, val_main_v9_apply, val_main_v11_apply, val_main_v10_apply, bias_edge]
  simp only [lidx_edge, ridx_edge]
  rfl

/-! ## The concatenation at an index -/

/-- A column below 128 reads the first piece at the same coordinates. -/
theorem concat_left (a : (⟨S50000x128, .f32⟩ : BufTy).Contents (Elt Ideal)) (b : (⟨S50000x64, .f32⟩ : BufTy).Contents (Elt Ideal))
    (i : S50000x192.Idx) (h : (i 1).val < 128) :
    concatenate S50000x192 1 [⟨S50000x128, a⟩, ⟨S50000x64, b⟩] Facts₀.concatenates_S50000x128_S50000x64_S50000x192_d1 i
      = a (ix2 (⟨(i 0).val, (i 0).isLt⟩ : Fin 50000) (⟨(i 1).val, h⟩ : Fin 128)) :=
  concatenate_pair_apply_left 1 a b _ i rfl _ (fun d => by match d with | ⟨0, _⟩ => rfl | ⟨1, _⟩ => rfl)

/-- A column from 128 on reads the second piece at the column less 128. -/
theorem concat_right (a : (⟨S50000x128, .f32⟩ : BufTy).Contents (Elt Ideal)) (b : (⟨S50000x64, .f32⟩ : BufTy).Contents (Elt Ideal))
    (i : S50000x192.Idx) (h : ¬(i 1).val < 128) :
    concatenate S50000x192 1 [⟨S50000x128, a⟩, ⟨S50000x64, b⟩] Facts₀.concatenates_S50000x128_S50000x64_S50000x192_d1 i
      = b (ix2 (⟨(i 0).val, (i 0).isLt⟩ : Fin 50000)
          (⟨(i 1).val - 128, by have h1 : (i 1).val < 192 := (i 1).isLt; omega⟩ : Fin 64)) :=
  concatenate_pair_apply_right 1 a b _ i rfl rfl _
    (fun d hd => by match d with | ⟨0, _⟩ => rfl | ⟨1, _⟩ => exact absurd rfl hd)
    (by show (i 1).val - 128 + 128 = (i 1).val; omega)

/-! ## The reference's result is the joined output -/

/-- The reference's last stage, index by index, is the joined output of the argument arrays and of the aggregated edge
    features as the reference's own scatter stage computes them. -/
theorem result_eq (x0 : (⟨S50000x128, .f32⟩ : BufTy).Contents (Elt Ideal)) (x1 : (⟨S2x800000, .i32⟩ : BufTy).Contents (Elt Ideal))
    (x2 : (⟨S800000x64, .f32⟩ : BufTy).Contents (Elt Ideal)) (x3 : (⟨S128x128, .f32⟩ : BufTy).Contents (Elt Ideal))
    (x4 : (⟨S128, .f32⟩ : BufTy).Contents (Elt Ideal)) (x5 : (⟨S64x64, .f32⟩ : BufTy).Contents (Elt Ideal))
    (x6 : (⟨S64, .f32⟩ : BufTy).Contents (Elt Ideal)) :
    val_main_v14 (F := Ideal) x0 x1 x2 x3 x4 x5 x6 = joined x0 (val_main_v4 (F := Ideal) x1 x2) x3 x4 x5 x6 := by
  funext i
  rw [val_main_v14_apply, val_main_call0_v0_apply, val_main_call0_cst_apply]
  unfold val_main_v13 joined
  by_cases h : (i 1).val < 128
  · rw [dif_pos h, concat_left _ _ i h, node_stage]
    show max _ (Ideal.ofBits .f32 0x00000000#32) = _
    rw [Ideal.ofBits_zero_f32]
    rfl
  · rw [dif_neg h, concat_right _ _ i h, edge_stage]
    show max _ (Ideal.ofBits .f32 0x00000000#32) = _
    rw [Ideal.ofBits_zero_f32]
    rfl

end Cert.ReferenceIdeal.RefValue

end
-- ==== Proof.lean ====
/-
  The certificate: the fused two-layer kernel against its reference, over the extended reals.

  Both programs first sum the edge features by source node (the same scatter-add of the same arguments), then
  compute, for every node, `max (x · Wx + bx, 0)` in output columns 0–127 and `max (agg · We + be, 0)` in columns
  128–191. The kernel does it ten row blocks at a time, each block's two halves stored side by side; the reference
  concatenates the two layers and takes the maximum with zero. Index by index both are the one function
  `Cert.TwoLayers.joined` of the arguments: no law of arithmetic is needed beyond reading each operation at an
  index, so the finiteness of the inputs is never used.

  The three frames are the generated frame runs (the reference's frame is its generated run with the result
  dropped); the idealization rewrote nothing, so `preserves` is `True`.
-/
import proofs.«181262_j34144990003907_1_alg».proof.Defs
import proofs.«181262_j34144990003907_1_alg».proof.Proof.Gen.Kernel
import proofs.«181262_j34144990003907_1_alg».proof.Proof.Gen.Kernel.Frame
import proofs.«181262_j34144990003907_1_alg».proof.Proof.Gen.KernelIdeal
import proofs.«181262_j34144990003907_1_alg».proof.Proof.Gen.KernelIdeal.Frame
import proofs.«181262_j34144990003907_1_alg».proof.Proof.Gen.ReferenceIdeal
import proofs.«181262_j34144990003907_1_alg».proof.Proof.Gen.ReferenceIdeal.Run
import proofs.«181262_j34144990003907_1_alg».proof.Proof.Gen.ReferenceIdeal.Read
import proofs.«181262_j34144990003907_1_alg».proof.Proof.Gen.Pre_finite_inputs
import proofs.«181262_j34144990003907_1_alg».proof.Proof.KernelValue
import proofs.«181262_j34144990003907_1_alg».proof.Proof.RefValue

noncomputable section

namespace Cert.Proof

open Idealize.ShloMosaic Idealize.SL.Sem

/-- The aggregated edge features are one term in both programs: the same scatter-add of a zero array, indexed by the
    first row of the edge index, over the same edge features. -/
theorem aggregated_eq (x1 : (⟨Cert.ReferenceIdeal.S2x800000, .i32⟩ : BufTy).Contents (Elt Ideal))
    (x2 : (⟨Cert.ReferenceIdeal.S800000x64, .f32⟩ : BufTy).Contents (Elt Ideal)) :
    Cert.ReferenceIdeal.Read.val_main_v4 (F := Ideal) x1 x2 = Cert.KernelIdeal.EntryValue.aggregated (F := Ideal) x1 x2 := rfl

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result array ends at the joined output of its arguments
    and the reference's at its last stage, which is the joined output of the same arguments. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, aggregated_eq,
    (hagree c).1, (hagree c).2.1, (hagree c).2.2.1, (hagree c).2.2.2.1, (hagree c).2.2.2.2.1,
    (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
